-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_1)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg3)) (v3 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_v7_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8 : Shape := ⟨1, ![8]⟩
abbrev S8x64x512 : Shape := ⟨3, ![8, 64, 512]⟩
abbrev S8x256x64x256 : Shape := ⟨4, ![8, 256, 64, 256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S8x256x64x256 : S_.BroadcastsInDim S8x256x64x256 (![] : Fin 0 → Fin S8x256x64x256.rank)
  reducesTo_S8x256x64x256_S_d0_1_2_3 : S8x256x64x256.ReducesTo [0, 1, 2, 3] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg6 : FVec F S512 .f32) (main_arg7 : FVec F S1024x512 .f32) (main_arg8 : FVec F S1024 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg7
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x256x512 .f32) (main_arg1 : IVec S8 32) (main_arg2 : FVec F S8x64x512 .f32) (main_arg3 : IVec S8 32) (main_arg4 : FVec F S8x256x64x256 .f32) (main_arg5 : FVec F S512x256 .f32) (main_arg6 : FVec F S512 .f32) (main_arg7 : FVec F S1024x512 .f32) (main_arg8 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg2
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S8x256x64x256 .f32 := Host.absf main_arg4
  let main_cst_2 : FVec F S_ .f32 := constant S_ .f32 0x7F800000#32
  let main_v10 : FVec F S8x256x64x256 .f32 := broadcastInDim S8x256x64x256 ![] bcast_S_S8x256x64x256 main_cst_2
  let main_v11 : IVec S8x256x64x256 1 := cmpf .olt main_v9 main_v10
  let main_c_3 : IVec S_ 1 := constantI S_ 1 1#1
  let main_v12 : IVec S_ 1 := (fun x v => Host.reduce IntOp.andi x v reducesTo_S8x256x64x256_S_d0_1_2_3 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg6 main_arg7 main_arg8 main_v13 main_v16
-- ==== Kernel.lean ====
abbrev S8x256x512 : Shape := ⟨3, ![8, 256, 512]⟩
abbrev S8 : Shape := ⟨1, ![8]⟩
abbrev S8x64x512 : Shape := ⟨3, ![8, 64, 512]⟩
abbrev S8x256x64x256 : Shape := ⟨4, ![8, 256, 64, 256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S256x512 : Shape := ⟨2, ![256, 512]⟩
abbrev S512x1024 : Shape := ⟨2, ![512, 1024]⟩
abbrev S1x1x512 : Shape := ⟨3, ![1, 1, 512]⟩
abbrev S8x256x64x512 : Shape := ⟨4, ![8, 256, 64, 512]⟩
abbrev S8x256x64x1024 : Shape := ⟨4, ![8, 256, 64, 1024]⟩
abbrev S1x16x512 : Shape := ⟨3, ![1, 16, 512]⟩
abbrev S1x64x512 : Shape := ⟨3, ![1, 64, 512]⟩
abbrev S1x16x64x256 : Shape := ⟨4, ![1, 16, 64, 256]⟩
abbrev S1x16x64x512 : Shape := ⟨4, ![1, 16, 64, 512]⟩
abbrev S1x16x64x1024 : Shape := ⟨4, ![1, 16, 64, 1024]⟩
abbrev S16x512 : Shape := ⟨2, ![16, 512]⟩
abbrev S64x512 : Shape := ⟨2, ![64, 512]⟩
abbrev S16x1x512 : Shape := ⟨3, ![16, 1, 512]⟩
abbrev S16x64x512 : Shape := ⟨3, ![16, 64, 512]⟩
abbrev S16x64x256 : Shape := ⟨3, ![16, 64, 256]⟩
abbrev S1024x256 : Shape := ⟨2, ![1024, 256]⟩
abbrev S1024x1024 : Shape := ⟨2, ![1024, 1024]⟩
abbrev S16x64x1024 : Shape := ⟨3, ![16, 64, 1024]⟩
abbrev S1x1x1024 : Shape := ⟨3, ![1, 1, 1024]⟩

abbrev nBuf : Space → Nat
  | .hbm => 18
  | .vmem => 13
  | .smem => 0
  | _ => 0

abbrev bufTy : (tb : Table) → Fin (tcTables nBuf tb) → BufTy
  | .hbm, ⟨0, _⟩ => ⟨S8x256x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S8x256x64x256, .f32⟩
  | .hbm, ⟨5, _⟩ => ⟨S512x256, .f32⟩
  | .hbm, ⟨6, _⟩ => ⟨S512, .f32⟩
  | .hbm, ⟨7, _⟩ => ⟨S1024x512, .f32⟩
  | .hbm, ⟨8, _⟩ => ⟨S1024, .f32⟩
  | .hbm, ⟨9, _⟩ => ⟨S256x512, .f32⟩
  | .hbm, ⟨10, _⟩ => ⟨S256x512, .bf16⟩
  | .hbm, ⟨11, _⟩ => ⟨S512x1024, .f32⟩
  | .hbm, ⟨12, _⟩ => ⟨S512x1024, .bf16⟩
  | .hbm, ⟨13, _⟩ => ⟨S1x1x512, .f32⟩
  | .hbm, ⟨14, _⟩ => ⟨S8x64x512, .f32⟩
  | .hbm, ⟨15, _⟩ => ⟨S8x64x512, .f32⟩
  | .hbm, ⟨16, _⟩ => ⟨S8x256x64x512, .f32⟩
  | .hbm, ⟨17, _⟩ => ⟨S8x256x64x1024, .f32⟩
  | .local _ .vmem, ⟨0, _⟩ => ⟨S1x16x512, .f32⟩
  | .local _ .vmem, ⟨1, _⟩ => ⟨S1x16x512, .f32⟩
  | .local _ .vmem, ⟨2, _⟩ => ⟨S1x64x512, .f32⟩
  | .local _ .vmem, ⟨3, _⟩ => ⟨S1x64x512, .f32⟩
  | .local _ .vmem, ⟨4, _⟩ => ⟨S1x16x64x256, .f32⟩
  | .local _ .vmem, ⟨5, _⟩ => ⟨S1x16x64x256, .f32⟩
  | .local _ .vmem, ⟨6, _⟩ => ⟨S256x512, .bf16⟩
  | .local _ .vmem, ⟨7, _⟩ => ⟨S512x1024, .bf16⟩
  | .local _ .vmem, ⟨8, _⟩ => ⟨S1024, .f32⟩
  | .local _ .vmem, ⟨9, _⟩ => ⟨S1x16x64x512, .f32⟩
  | .local _ .vmem, ⟨10, _⟩ => ⟨S1x16x64x512, .f32⟩
  | .local _ .vmem, ⟨11, _⟩ => ⟨S1x16x64x1024, .f32⟩
  | .local _ .vmem, ⟨12, _⟩ => ⟨S1x16x64x1024, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S512x256_S256x512_1_0 : S512x256.Transposes [1, 0] S256x512
  bitsLt_bf16_f32 : FTy.bits .bf16 < FTy.bits .f32
  transposes_S1024x512_S512x1024_1_0 : S1024x512.Transposes [1, 0] S512x1024
  bcast_S512_S1x1x512_2 : S512.BroadcastsInDim S1x1x512 (![2] : Fin 1 → Fin S1x1x512.rank)
  bcast_S1x1x512_S8x64x512_0_1_2 : S1x1x512.BroadcastsInDim S8x64x512 (![0, 1, 2] : Fin 3 → Fin S8x64x512.rank)
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S16x512_S16x1x512 : S16x512.ShapeCasts S16x1x512
  shapeCasts_S64x512_S1x64x512 : S64x512.ShapeCasts S1x64x512
  broadcasts_S16x1x512_S16x64x512 : S16x1x512.Broadcasts S16x64x512
  broadcasts_S1x64x512_S16x64x512 : S1x64x512.Broadcasts S16x64x512
  inb_S1x16x64x256_S1x16x64x256_0_0_0_0 : ∀ a, (![0, 0, 0, 0] : Fin 4 → Nat) a + S1x16x64x256.size a ≤ S1x16x64x256.size a
  h_S1x16x64x256 : 0 < S1x16x64x256.numel
  shapeCasts_S1x16x64x256_S16x64x256 : S1x16x64x256.ShapeCasts S16x64x256
  shapeCasts_S16x64x256_S1024x256 : S16x64x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S1024x512_S16x64x512 : S1024x512.ShapeCasts S16x64x512
  inb_S1x16x64x512_S1x16x64x512_0_0_0_0 : ∀ a, (![0, 0, 0, 0] : Fin 4 → Nat) a + S1x16x64x512.size a ≤ S1x16x64x512.size a
  h_S1x16x64x512 : 0 < S1x16x64x512.numel
  shapeCasts_S1x16x64x512_S16x64x512 : S1x16x64x512.ShapeCasts S16x64x512
  shapeCasts_S16x64x512_S1x16x64x512 : S16x64x512.ShapeCasts S1x16x64x512
  shapeCasts_S16x64x512_S1024x512 : S16x64x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024x1024_S16x64x1024 : S1024x1024.ShapeCasts S16x64x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S16x64x1024 : S1x1x1024.Broadcasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  dot_S1024x256_S256x512_S1024x512_1_0_0_1_n_n_wf : DotDims.WF S1024x256 S256x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S8x256x512.size a
  hwx0_0 : ∀ i : grid0.Coords, EltTy.bits .f32 = 32 ∨ (Rect.block (s := S8x256x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x64x256.size a ≤ S8x256x64x256.size a
  hwx0_2 : ∀ i : grid0.Coords, EltTy.bits .f32 = 32 ∨ (Rect.block (s := S8x256x64x256) S1x16x64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x64x512.size a ≤ S8x256x64x512.size a
  hwx0_6 : ∀ i : grid0.Coords, EltTy.bits .f32 = 32 ∨ (Rect.block (s := S8x256x64x512) S1x16x64x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x64x1024.size a ≤ S8x256x64x1024.size a
  hwx0_7 : ∀ i : grid0.Coords, EltTy.bits .f32 = 32 ∨ (Rect.block (s := S8x256x64x1024) S1x16x64x1024.size (cc0_transform_7 i) (hinb0_7 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x16x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S1x16x64x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1x16x64x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8 : Shape := ⟨1, ![8]⟩
abbrev S8x64x512 : Shape := ⟨3, ![8, 64, 512]⟩
abbrev S8x256x64x256 : Shape := ⟨4, ![8, 256, 64, 256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S8x256x1x512 : Shape := ⟨4, ![8, 256, 1, 512]⟩
abbrev S8x1x64x512 : Shape := ⟨4, ![8, 1, 64, 512]⟩
abbrev S8x256x64x512 : Shape := ⟨4, ![8, 256, 64, 512]⟩
abbrev S1x1x1x512 : Shape := ⟨4, ![1, 1, 1, 512]⟩
abbrev S_ : Shape := ⟨0, ![]⟩
abbrev S8x256x64x1024 : Shape := ⟨4, ![8, 256, 64, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8, .i32⟩
  | .hbm, ⟨2, _⟩ => ⟨S8x64x512, .f32⟩
  | .hbm, ⟨3, _⟩ => ⟨S8, .i32⟩
  | .hbm, ⟨4, _⟩ => ⟨S8x256x64x256, .f32⟩
  | .hbm, ⟨5, _⟩ => ⟨S512x256, .f32⟩
  | .hbm, ⟨6, _⟩ => ⟨S512, .f32⟩
  | .hbm, ⟨7, _⟩ => ⟨S1024x512, .f32⟩
  | .hbm, ⟨8, _⟩ => ⟨S1024, .f32⟩
  | .hbm, ⟨9, _⟩ => ⟨S8x256x1x512, .f32⟩
  | .hbm, ⟨10, _⟩ => ⟨S8x1x64x512, .f32⟩
  | .hbm, ⟨11, _⟩ => ⟨S8x256x64x512, .f32⟩
  | .hbm, ⟨12, _⟩ => ⟨S8x256x64x512, .f32⟩
  | .hbm, ⟨13, _⟩ => ⟨S8x256x64x512, .f32⟩
  | .hbm, ⟨14, _⟩ => ⟨S8x256x64x512, .f32⟩
  | .hbm, ⟨15, _⟩ => ⟨S8x256x64x512, .f32⟩
  | .hbm, ⟨16, _⟩ => ⟨S1x1x1x512, .f32⟩
  | .hbm, ⟨17, _⟩ => ⟨S8x256x64x512, .f32⟩
  | .hbm, ⟨18, _⟩ => ⟨S8x256x64x512, .f32⟩
  | .hbm, ⟨19, _⟩ => ⟨S_, .f32⟩
  | .hbm, ⟨20, _⟩ => ⟨S8x256x64x512, .f32⟩
  | .hbm, ⟨21, _⟩ => ⟨S8x256x64x512, .f32⟩
  | .hbm, ⟨22, _⟩ => ⟨S8x256x64x1024, .f32⟩
  | .hbm, ⟨23, _⟩ => ⟨S1x1x1x1024, .f32⟩
  | .hbm, ⟨24, _⟩ => ⟨S8x256x64x1024, .f32⟩
  | .hbm, ⟨25, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_cst : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S8x256x512_S8x256x1x512_0_1_3 : S8x256x512.BroadcastsInDim S8x256x1x512 (![0, 1, 3] : Fin 3 → Fin S8x256x1x512.rank)
  bcast_S8x64x512_S8x1x64x512_0_2_3 : S8x64x512.BroadcastsInDim S8x1x64x512 (![0, 2, 3] : Fin 3 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S512_S1x1x1x512_3 : S512.BroadcastsInDim S1x1x1x512 (![3] : Fin 1 → Fin S1x1x1x512.rank)
  bcast_S1x1x1x512_S8x256x64x512_0_1_2_3 : S1x1x1x512.BroadcastsInDim S8x256x64x512 (![0, 1, 2, 3] : Fin 4 → Fin S8x256x64x512.rank)
  bcast_S_S8x256x64x512 : S_.BroadcastsInDim S8x256x64x512 (![] : Fin 0 → Fin S8x256x64x512.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x64x256_S512x256_S8x256x64x512_3_1_012_0_n_n_wf : DotDims.WF S8x256x64x256 S512x256 S8x256x64x512 [3] [1] [0, 1, 2] [0] [] []
  dot_S8x256x64x512_S1024x512_S8x256x64x1024_3_1_012_0_n_n_wf : DotDims.WF S8x256x64x512 S1024x512 S8x256x64x1024 [3] [1] [0, 1, 2] [0] [] []

variable [Facts₀]

def dot_S8x256x64x256_S512x256_S8x256x64x512_3_1_012_0_n_n : DotDims S8x256x64x256 S512x256 S8x256x64x512 where
  lhsContracting := [3]
  rhsContracting := [1]
  lhsNonContracting := [0, 1, 2]
  rhsNonContracting := [0]
  lhsBatch := []
  rhsBatch := []
  wf := dot_S8x256x64x256_S512x256_S8x256x64x512_3_1_012_0_n_n_wf
def dot_S8x256x64x512_S1024x512_S8x256x64x1024_3_1_012_0_n_n : DotDims S8x256x64x512 S1024x512 S8x256x64x1024 where
  lhsContracting := [3]
  rhsContracting := [1]
  lhsNonContracting := [0, 1, 2]
  rhsNonContracting := [0]
  lhsBatch := []
  rhsBatch := []
  wf := dot_S8x256x64x512_S1024x512_S8x256x64x1024_3_1_012_0_n_n_wf

class Facts : Prop extends Facts₀ where

variable [Facts]
-- ==== Proof.JointSpec.lean ====
/-
  The two results of the joint network, coordinate by coordinate, over the extended reals.

  For a batch entry `b`, a source frame `t`, a target position `u`:
  the hidden activation at feature `d` is the positive part of
      src[b,t,d] + tgt[b,u,d] + Σ_a hptr[b,t,u,a] · Wb[d,a] + bb[d],
  and the output at class `v` is
      Σ_d hidden[b,t,u,d] · Wo[v,d] + bo[v].
  The four summands of the hidden activation may be grouped as ((src + tgt) + Σ) + bb or as (src + (tgt + bb)) + Σ:
  addition of extended reals is commutative and associative, so the two groupings are one number (`regroup`), with
  no finiteness asked of anything.
-/
import Idealize.ShloMosaic.PureOps.Ideal
import Idealize.ShloMosaic.Lib.ValueIdx

noncomputable section

open scoped BigOperators

namespace Cert.Joint

open Idealize.ShloMosaic Idealize.ShloMosaic.ValueIdx

/-- The hidden activation at (b, t, u, d): the positive part of the sum of the source encoding, the target encoding,
    the biasing projection Σ_a hptr[b,t,u,a] · Wb[d,a] and the projection's bias, grouped ((src + tgt) + Σ) + bb. -/
def hiddenAt (src : (⟨3, ![8, 256, 512]⟩ : Shape).Idx → EReal) (tgt : (⟨3, ![8, 64, 512]⟩ : Shape).Idx → EReal)
    (hptr : (⟨4, ![8, 256, 64, 256]⟩ : Shape).Idx → EReal) (wb : (⟨2, ![512, 256]⟩ : Shape).Idx → EReal)
    (bb : (⟨1, ![512]⟩ : Shape).Idx → EReal) (b : Fin 8) (t : Fin 256) (u : Fin 64) (d : Fin 512) : EReal :=
  max (((src (ix3 b t d) + tgt (ix3 b u d)) + ∑ a : Fin 256, hptr (ix4 b t u a) * wb (ix2 d a)) + bb (ix1 d))
    (Ideal.ofBits .f32 0x00000000#32)

/-- The output at (b, t, u, v): the hidden activations of (b, t, u) against row `v` of the output weights, plus the
    output bias. -/
def outputAt (src : (⟨3, ![8, 256, 512]⟩ : Shape).Idx → EReal) (tgt : (⟨3, ![8, 64, 512]⟩ : Shape).Idx → EReal)
    (hptr : (⟨4, ![8, 256, 64, 256]⟩ : Shape).Idx → EReal) (wb : (⟨2, ![512, 256]⟩ : Shape).Idx → EReal)
    (bb : (⟨1, ![512]⟩ : Shape).Idx → EReal) (wo : (⟨2, ![1024, 512]⟩ : Shape).Idx → EReal)
    (bo : (⟨1, ![1024]⟩ : Shape).Idx → EReal) (b : Fin 8) (t : Fin 256) (u : Fin 64) (v : Fin 1024) : EReal :=
  (∑ d : Fin 512, hiddenAt src tgt hptr wb bb b t u d * wo (ix2 v d)) + bo (ix1 v)

/-- The hidden activations as one array [8, 256, 64, 512]. -/
def hidden (src : (⟨3, ![8, 256, 512]⟩ : Shape).Idx → EReal) (tgt : (⟨3, ![8, 64, 512]⟩ : Shape).Idx → EReal)
    (hptr : (⟨4, ![8, 256, 64, 256]⟩ : Shape).Idx → EReal) (wb : (⟨2, ![512, 256]⟩ : Shape).Idx → EReal)
    (bb : (⟨1, ![512]⟩ : Shape).Idx → EReal) : (⟨4, ![8, 256, 64, 512]⟩ : Shape).Idx → EReal :=
  fun i => hiddenAt src tgt hptr wb bb (i 0) (i 1) (i 2) (i 3)

/-- The outputs as one array [8, 256, 64, 1024]. -/
def output (src : (⟨3, ![8, 256, 512]⟩ : Shape).Idx → EReal) (tgt : (⟨3, ![8, 64, 512]⟩ : Shape).Idx → EReal)
    (hptr : (⟨4, ![8, 256, 64, 256]⟩ : Shape).Idx → EReal) (wb : (⟨2, ![512, 256]⟩ : Shape).Idx → EReal)
    (bb : (⟨1, ![512]⟩ : Shape).Idx → EReal) (wo : (⟨2, ![1024, 512]⟩ : Shape).Idx → EReal)
    (bo : (⟨1, ![1024]⟩ : Shape).Idx → EReal) : (⟨4, ![8, 256, 64, 1024]⟩ : Shape).Idx → EReal :=
  fun i => outputAt src tgt hptr wb bb wo bo (i 0) (i 1) (i 2) (i 3)

/-- Four extended reals added as (a + (b + e)) + s or as ((a + b) + s) + e: one number. -/
theorem regroup (a b e s : EReal) : (a + (b + e)) + s = ((a + b) + s) + e := by
  rw [← add_assoc, add_right_comm]

end Cert.Joint

end
-- ==== Proof.TileArith.lean ====
/-
  What the kernel body computes for one tile of 16 source frames, read at coordinates.

  A tile holds the source rows `P0[0,r,d]` (16 frames), the target rows `P1[0,u,d]` (64 positions, the projection's bias
  already added), the biasing inputs `P2[0,r,u,a]`, and the two weight matrices laid out contraction-axis first,
  `P3[a,d]` and `P4[d,v]`. The body flattens (r, u) to one row index r·64 + u for each of its two matrix products and
  unflattens the results; read at (r, u, ·) that flattening cancels, and a matrix product into a zero accumulator is the
  plain sum of products over the contracted axis. So the hidden tile at (r, u, d) is the positive part of
  (P0[0,r,d] + P1[0,u,d]) + Σ_a P2[0,r,u,a] · P3[a,d], and the output tile at (r, u, v) is
  Σ_d hidden[r,u,d] · P4[d,v] + P5[v].
-/
import proofs.«102210_j5497558139009_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Joint.Tile

open Cert.KernelIdeal Cert.KernelIdeal.Gen Idealize.ShloMosaic Idealize.ShloMosaic.ValueIdx

/-! ## The broadcasts of the source rows, the target rows and the output bias -/

/-- The source rows, copied along the target axis, read at (r, u, d): row r at feature d. -/
theorem src_at (P0 : Vec Ideal S1x16x512 .f32) (r : Fin 16) (u : Fin 64) (d : Fin 512) :
    broadcastTo S16x64x512 (shapeCast S16x1x512 (shapeCast S16x512 P0 shapeCasts_S1x16x512_S16x512) shapeCasts_S16x512_S16x1x512)
        broadcasts_S16x1x512_S16x64x512 (ix3 r u d)
      = P0 (ix3 (0 : Fin 1) r d) := by
  refine (broadcastTo_apply _ broadcasts_S16x1x512_S16x64x512 (ix3 r u d) (ix3 r (0 : Fin 1) d) (fun a => ?_)).trans ?_
  · match a with
    | ⟨0, _⟩ => show r.val = if (16 : Nat) = 1 then 0 else r.val; rw [if_neg (by decide)]
    | ⟨1, _⟩ => show 0 = if (1 : Nat) = 1 then 0 else u.val; rw [if_pos rfl]
    | ⟨2, _⟩ => show d.val = if (512 : Nat) = 1 then 0 else d.val; rw [if_neg (by decide)]
  refine (shapeCast_apply _ shapeCasts_S16x512_S16x1x512 (ix3 r (0 : Fin 1) d) (ix2 r d) ?_).trans ?_
  · rw [Shape.rowMajor_val_two, Shape.rowMajor_val_three]
    show r.val * 512 + d.val = (r.val * 1 + 0) * 512 + d.val
    omega
  refine shapeCast_apply _ shapeCasts_S1x16x512_S16x512 (ix2 r d) (ix3 (0 : Fin 1) r d) ?_
  rw [Shape.rowMajor_val_three, Shape.rowMajor_val_two]
  show (0 * 16 + r.val) * 512 + d.val = r.val * 512 + d.val
  omega

/-- The target rows, copied along the source axis, read at (r, u, d): row u at feature d. -/
theorem tgt_at (P1 : Vec Ideal S1x64x512 .f32) (r : Fin 16) (u : Fin 64) (d : Fin 512) :
    broadcastTo S16x64x512 (shapeCast S1x64x512 (shapeCast S64x512 P1 shapeCasts_S1x64x512_S64x512) shapeCasts_S64x512_S1x64x512)
        broadcasts_S1x64x512_S16x64x512 (ix3 r u d)
      = P1 (ix3 (0 : Fin 1) u d) := by
  rw [shapeCast_shapeCast]
  refine broadcastTo_apply _ broadcasts_S1x64x512_S16x64x512 (ix3 r u d) (ix3 (0 : Fin 1) u d) (fun a => ?_)
  match a with
  | ⟨0, _⟩ => show 0 = if (1 : Nat) = 1 then 0 else r.val; rw [if_pos rfl]
  | ⟨1, _⟩ => show u.val = if (64 : Nat) = 1 then 0 else u.val; rw [if_neg (by decide)]
  | ⟨2, _⟩ => show d.val = if (512 : Nat) = 1 then 0 else d.val; rw [if_neg (by decide)]

/-- The output bias, copied along both row axes, read at (r, u, v): its entry v. -/
theorem bias_at (P5 : Vec Ideal S1024 .f32) (r : Fin 16) (u : Fin 64) (v : Fin 1024) :
    broadcastTo S16x64x1024 (shapeCast S1x1x1024 P5 shapeCasts_S1024_S1x1x1024) broadcasts_S1x1x1024_S16x64x1024 (ix3 r u v)
      = P5 (ix1 v) := by
  refine (broadcastTo_apply _ broadcasts_S1x1x1024_S16x64x1024 (ix3 r u v) (ix3 (0 : Fin 1) (0 : Fin 1) v) (fun a => ?_)).trans ?_
  · match a with
    | ⟨0, _⟩ => show 0 = if (1 : Nat) = 1 then 0 else r.val; rw [if_pos rfl]
    | ⟨1, _⟩ => show 0 = if (1 : Nat) = 1 then 0 else u.val; rw [if_pos rfl]
    | ⟨2, _⟩ => show v.val = if (1024 : Nat) = 1 then 0 else v.val; rw [if_neg (by decide)]
  refine shapeCast_apply _ shapeCasts_S1024_S1x1x1024 (ix3 (0 : Fin 1) (0 : Fin 1) v) (ix1 v) ?_
  rw [Shape.rowMajor_val_one, Shape.rowMajor_val_three]
  show v.val = (0 * 1 + 0) * 1024 + v.val
  omega

/-! ## The first matrix product: rows (r, u) of the biasing inputs against the projection weights -/

theorem lhs_proj_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide),
    dif_pos (show (0 : Fin S1024x256.rank) ∈ dot_S1024x256_S256x512_S1024x512_1_0_0_1_n_n.lhsNonContracting by decide)]
  rfl
theorem lhs_proj_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem rhs_proj_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhs_proj_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide),
    dif_pos (show (1 : Fin S256x512.rank) ∈ dot_S1024x256_S256x512_S1024x512_1_0_0_1_n_n.rhsNonContracting by decide)]
  rfl

/-- A [1024, 256] × [256, 512] product into the zero accumulator, read at (p, d): Σ_a L[p,a] · R[a,d]. -/
theorem proj_matmul_at (L : FVec Ideal S1024x256 .bf16) (R : FVec Ideal S256x512 .bf16) (p : Fin 1024) (d : Fin 512) :
    matmul dot_S1024x256_S256x512_S1024x512_1_0_0_1_n_n none L R (constant S1024x512 .f32 0x00000000#32) (ix2 p d)
      = ∑ a : Fin 256, L (ix2 p a) * R (ix2 a d) := by
  refine (Ideal.matmul_constant_zero_apply dot_S1024x256_S256x512_S1024x512_1_0_0_1_n_n none L R (ix2 p d)).trans ?_
  rw [← Equiv.sum_comp (contrEquiv1 dot_S1024x256_S256x512_S1024x512_1_0_0_1_n_n 256 rfl rfl).symm]
  refine Finset.sum_congr rfl fun a _ => ?_
  have hk := contrEquiv1_symm_val dot_S1024x256_S256x512_S1024x512_1_0_0_1_n_n 256 rfl rfl a
  have el : dot_S1024x256_S256x512_S1024x512_1_0_0_1_n_n.lhsIdx (ix2 p d) ((contrEquiv1 dot_S1024x256_S256x512_S1024x512_1_0_0_1_n_n 256 rfl rfl).symm a) = ix2 p a :=
    funext fun x => Fin.ext (by
      match x with
      | ⟨0, _⟩ => exact lhs_proj_0 _ _
      | ⟨1, _⟩ => exact (lhs_proj_1 _ _).trans hk)
  have er : dot_S1024x256_S256x512_S1024x512_1_0_0_1_n_n.rhsIdx (ix2 p d) ((contrEquiv1 dot_S1024x256_S256x512_S1024x512_1_0_0_1_n_n 256 rfl rfl).symm a) = ix2 a d :=
    funext fun x => Fin.ext (by
      match x with
      | ⟨0, _⟩ => exact (rhs_proj_0 _ _).trans hk
      | ⟨1, _⟩ => exact rhs_proj_1 _ _)
  rw [el, er]

/-- The biasing projection of the tile, read at (r, u, d): Σ_a P2[0,r,u,a] · P3[a,d]. -/
theorem proj_at (P2 : FVec Ideal S1x16x64x256 .f32) (P3 : FVec Ideal S256x512 .bf16) (r : Fin 16) (u : Fin 64) (d : Fin 512) :
    shapeCast S16x64x512
        (matmul (F := Ideal) dot_S1024x256_S256x512_S1024x512_1_0_0_1_n_n none
          (shapeCast S1024x256 (truncf .bf16 (shapeCast S16x64x256 P2 shapeCasts_S1x16x64x256_S16x64x256) bitsLt_bf16_f32) shapeCasts_S16x64x256_S1024x256)
          (shapeCast S256x512 P3 shapeCasts_S256x512_S256x512) (constant (F := Ideal) S1024x512 .f32 0x00000000#32))
        shapeCasts_S1024x512_S16x64x512 (ix3 r u d)
      = ∑ a : Fin 256, P2 (ix4 (0 : Fin 1) r u a) * P3 (ix2 a d) := by
  have hp : r.val * 64 + u.val < 1024 := by have := r.isLt; have := u.isLt; omega
  refine (shapeCast_apply _ shapeCasts_S1024x512_S16x64x512 (ix3 r u d) (ix2 (⟨r.val * 64 + u.val, hp⟩ : Fin 1024) d) ?_).trans ?_
  · rw [Shape.rowMajor_val_two, Shape.rowMajor_val_three]
    show (r.val * 64 + u.val) * 512 + d.val = (r.val * 64 + u.val) * 512 + d.val
    rfl
  refine (proj_matmul_at _ _ (⟨r.val * 64 + u.val, hp⟩ : Fin 1024) d).trans ?_
  refine Finset.sum_congr rfl fun a _ => ?_
  rw [shapeCast_self]
  refine congrArg (· * P3 (ix2 a d)) ?_
  refine (shapeCast_apply _ shapeCasts_S16x64x256_S1024x256 (ix2 (⟨r.val * 64 + u.val, hp⟩ : Fin 1024) a) (ix3 r u a) ?_).trans ?_
  · rw [Shape.rowMajor_val_three, Shape.rowMajor_val_two]
    show (r.val * 64 + u.val) * 256 + a.val = (r.val * 64 + u.val) * 256 + a.val
    rfl
  show shapeCast S16x64x256 P2 shapeCasts_S1x16x64x256_S16x64x256 (ix3 r u a) = _
  refine shapeCast_apply _ shapeCasts_S1x16x64x256_S16x64x256 (ix3 r u a) (ix4 (0 : Fin 1) r u a) ?_
  rw [Shape.rowMajor_val_four, Shape.rowMajor_val_three]
  show ((0 * 16 + r.val) * 64 + u.val) * 256 + a.val = (r.val * 64 + u.val) * 256 + a.val
  omega

/-- THE HIDDEN TILE at (r, u, d): the positive part of (source + target) + projection. -/
theorem hidden_tile (P0 : Vec Ideal S1x16x512 .f32) (P1 : Vec Ideal S1x64x512 .f32) (P2 : Vec Ideal S1x16x64x256 .f32)
    (P3 : Vec Ideal S256x512 .bf16) (r : Fin 16) (u : Fin 64) (d : Fin 512) :
    k0_pay2 (F := Ideal) P0 P1 P2 P3 (ix3 r u d)
      = max ((P0 (ix3 (0 : Fin 1) r d) + P1 (ix3 (0 : Fin 1) u d)) + ∑ a : Fin 256, P2 (ix4 (0 : Fin 1) r u a) * P3 (ix2 a d))
          (Ideal.ofBits .f32 0x00000000#32) := by
  unfold k0_pay2
  exact congrArg₂ max (congrArg₂ (· + ·) (congrArg₂ (· + ·) (src_at P0 r u d) (tgt_at P1 r u d)) (proj_at P2 P3 r u d)) rfl

/-! ## The second matrix product: rows (r, u) of the hidden tile against the output weights -/

theorem lhs_out_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem lhs_out_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_out_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_out_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- A [1024, 512] × [512, 1024] product into the zero accumulator, read at (p, v): Σ_d L[p,d] · R[d,v]. -/
theorem out_matmul_at (L : FVec Ideal S1024x512 .bf16) (R : FVec Ideal S512x1024 .bf16) (p : Fin 1024) (v : Fin 1024) :
    matmul dot_S1024x512_S512x1024_S1024x1024_1_0_0_1_n_n none L R (constant S1024x1024 .f32 0x00000000#32) (ix2 p v)
      = ∑ k : Fin 512, L (ix2 p k) * R (ix2 k v) := by
  refine (Ideal.matmul_constant_zero_apply dot_S1024x512_S512x1024_S1024x1024_1_0_0_1_n_n none L R (ix2 p v)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p v) ((contrEquiv1 dot_S1024x512_S512x1024_S1024x1024_1_0_0_1_n_n 512 rfl rfl).symm k) = ix2 p k :=
    funext fun x => Fin.ext (by
      match x with
      | ⟨0, _⟩ => exact lhs_out_0 _ _
      | ⟨1, _⟩ => exact (lhs_out_1 _ _).trans hk)
  have er : dot_S1024x512_S512x1024_S1024x1024_1_0_0_1_n_n.rhsIdx (ix2 p v) ((contrEquiv1 dot_S1024x512_S512x1024_S1024x1024_1_0_0_1_n_n 512 rfl rfl).symm k) = ix2 k v :=
    funext fun x => Fin.ext (by
      match x with
      | ⟨0, _⟩ => exact (rhs_out_0 _ _).trans hk
      | ⟨1, _⟩ => exact rhs_out_1 _ _)
  rw [el, er]

/-- The output product of the tile, read at (r, u, v): Σ_d H[r,u,d] · P4[d,v]. -/
theorem outprod_at (H : FVec Ideal S16x64x512 .f32) (P4 : FVec Ideal S512x1024 .bf16) (r : Fin 16) (u : Fin 64) (v : Fin 1024) :
    shapeCast S16x64x1024
        (matmul (F := Ideal) dot_S1024x512_S512x1024_S1024x1024_1_0_0_1_n_n none
          (shapeCast S1024x512 (truncf .bf16 H bitsLt_bf16_f32) shapeCasts_S16x64x512_S1024x512)
          (shapeCast S512x1024 P4 shapeCasts_S512x1024_S512x1024) (constant (F := Ideal) S1024x1024 .f32 0x00000000#32))
        shapeCasts_S1024x1024_S16x64x1024 (ix3 r u v)
      = ∑ k : Fin 512, H (ix3 r u k) * P4 (ix2 k v) := by
  have hp : r.val * 64 + u.val < 1024 := by have := r.isLt; have := u.isLt; omega
  refine (shapeCast_apply _ shapeCasts_S1024x1024_S16x64x1024 (ix3 r u v) (ix2 (⟨r.val * 64 + u.val, hp⟩ : Fin 1024) v) ?_).trans ?_
  · rw [Shape.rowMajor_val_two, Shape.rowMajor_val_three]
    show (r.val * 64 + u.val) * 1024 + v.val = (r.val * 64 + u.val) * 1024 + v.val
    rfl
  refine (out_matmul_at _ _ (⟨r.val * 64 + u.val, hp⟩ : Fin 1024) v).trans ?_
  refine Finset.sum_congr rfl fun k _ => ?_
  rw [shapeCast_self]
  refine congrArg (· * P4 (ix2 k v)) ?_
  refine shapeCast_apply _ shapeCasts_S16x64x512_S1024x512 (ix2 (⟨r.val * 64 + u.val, hp⟩ : Fin 1024) k) (ix3 r u k) ?_
  rw [Shape.rowMajor_val_three, Shape.rowMajor_val_two]
  show (r.val * 64 + u.val) * 512 + k.val = (r.val * 64 + u.val) * 512 + k.val
  rfl

/-- THE OUTPUT TILE at (r, u, v): the hidden tile's row (r, u) against column v of the output weights, plus the bias. -/
theorem output_tile (P0 : Vec Ideal S1x16x512 .f32) (P1 : Vec Ideal S1x64x512 .f32) (P2 : Vec Ideal S1x16x64x256 .f32)
    (P3 : Vec Ideal S256x512 .bf16) (P4 : Vec Ideal S512x1024 .bf16) (P5 : Vec Ideal S1024 .f32)
    (r : Fin 16) (u : Fin 64) (v : Fin 1024) :
    k0_pay4 (F := Ideal) P0 P1 P2 P3 P4 P5 (ix3 r u v)
      = (∑ k : Fin 512, k0_pay2 (F := Ideal) P0 P1 P2 P3 (ix3 r u k) * P4 (ix2 k v)) + P5 (ix1 v) := by
  unfold k0_pay4
  exact congrArg₂ (· + ·) (outprod_at (k0_pay2 (F := Ideal) P0 P1 P2 P3) P4 r u v) (bias_at P5 r u v)

end Cert.Joint.Tile

end
-- ==== Proof.HostPrep.lean ====
/-
  The argument arrays by name, and the three arrays the host prepares before the call, read at an index.

  Before the tiles run, the host adds the projection's bias to the target encodings — entry (b, u, d) becomes
  tgt[b,u,d] + bb[d] — and transposes each weight matrix so that its contracted axis comes first: entry (a, d) of the
  first is Wb[d,a], entry (d, v) of the second is Wo[v,d]. (Their change of float format is the identity on extended
  reals.)
-/
import proofs.«102210_j5497558139009_2_alg».proof.Proof.Gen.KernelIdeal.Frame
import Idealize.ShloMosaic.Lib.Pipeline.Value
import Idealize.ShloMosaic.Lib.ValueIdx
import Idealize.ShloMosaic.Lib.StableHlo.Run

noncomputable section

namespace Cert.Joint.Prep

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The seven float arguments as launched -/

/-- The source encodings [8, 256, 512]. -/
abbrev srcArg (c : Dev nD) : S8x256x512.Idx → EReal := m ((c : Thread nD τ).loc main_arg0)
/-- The target encodings [8, 64, 512]. -/
abbrev tgtArg (c : Dev nD) : S8x64x512.Idx → EReal := m ((c : Thread nD τ).loc main_arg2)
/-- The biasing inputs [8, 256, 64, 256]. -/
abbrev hptrArg (c : Dev nD) : S8x256x64x256.Idx → EReal := m ((c : Thread nD τ).loc main_arg4)
/-- The projection weights [512, 256]. -/
abbrev wbArg (c : Dev nD) : S512x256.Idx → EReal := m ((c : Thread nD τ).loc main_arg5)
/-- The projection bias [512]. -/
abbrev bbArg (c : Dev nD) : S512.Idx → EReal := m ((c : Thread nD τ).loc main_arg6)
/-- The output weights [1024, 512]. -/
abbrev woArg (c : Dev nD) : S1024x512.Idx → EReal := m ((c : Thread nD τ).loc main_arg7)
/-- The output bias [1024]. -/
abbrev boArg (c : Dev nD) : S1024.Idx → EReal := m ((c : Thread nD τ).loc main_arg8)

/-! ## What the host writes before the call -/

/-- The target encodings with the projection's bias added, as the tiles find them. -/
theorem tgt_plus_eq (c : Dev nD) :
    (V m c main_v6 : S8x64x512.Idx → EReal)
      = addf (F := Ideal) (s := S8x64x512) (φ := .f32) (tgtArg m c)
          (broadcastInDim (α := EReal) S8x64x512 ![0, 1, 2] bcast_S1x1x512_S8x64x512_0_1_2
            (broadcastInDim (α := EReal) S1x1x512 ![2] bcast_S512_S1x1x512_2 (bbArg m c))) := by
  dsimp only [V, hostOps0]
  after_results

/-- Read at (b, u, d): tgt[b,u,d] + bb[d]. -/
theorem tgt_plus_at (c : Dev nD) (b : Fin 8) (u : Fin 64) (d : Fin 512) :
    (V m c main_v6 : S8x64x512.Idx → EReal) (ix3 b u d) = tgtArg m c (ix3 b u d) + bbArg m c (ix1 d) := by
  refine (congrFun (tgt_plus_eq m c) (ix3 b u d)).trans ?_
  refine (addf_apply (s := S8x64x512) (φ := .f32) _ _ _).trans (congrArg (tgtArg m c (ix3 b u d) + ·) ?_)
  refine (broadcastInDim_apply _ bcast_S1x1x512_S8x64x512_0_1_2 _ (ix3 b u d) (ix3 (0 : Fin 1) (0 : Fin 1) d) (fun a => ?_)).trans ?_
  · match a with
    | ⟨0, _⟩ => show 0 = if (1 : Nat) = 1 then 0 else b.val; rw [if_pos rfl]
    | ⟨1, _⟩ => show 0 = if (1 : Nat) = 1 then 0 else u.val; rw [if_pos rfl]
    | ⟨2, _⟩ => show d.val = if (512 : Nat) = 1 then 0 else d.val; rw [if_neg (by decide)]
  refine broadcastInDim_apply _ bcast_S512_S1x1x512_2 _ (ix3 (0 : Fin 1) (0 : Fin 1) d) (ix1 d) (fun a => ?_)
  match a with
  | ⟨0, _⟩ => show d.val = if (512 : Nat) = 1 then 0 else d.val; rw [if_neg (by decide)]

/-- The projection weights, contracted axis first, as the tiles find them. -/
theorem wb_t_eq (c : Dev nD) :
    (V m c main_v1 : S256x512.Idx → EReal)
      = truncf (F := Ideal) (s := S256x512) (φ := .f32) .bf16
          (transpose (α := EReal) S256x512 [1, 0] (wbArg m c) transposes_S512x256_S256x512_1_0) bitsLt_bf16_f32 := by
  dsimp only [V, hostOps0]
  after_results

/-- Read at (a, d): Wb[d,a]. -/
theorem wb_t_at (c : Dev nD) (a : Fin 256) (d : Fin 512) :
    (V m c main_v1 : S256x512.Idx → EReal) (ix2 a d) = wbArg m c (ix2 d a) := by
  refine (congrFun (wb_t_eq m c) (ix2 a d)).trans ?_
  refine (truncf_apply (s := S256x512) (φ := .f32) (ψ := .bf16) _ bitsLt_bf16_f32 (ix2 a d)).trans ?_
  exact transpose_apply [1, 0] (wbArg m c) transposes_S512x256_S256x512_1_0 (ix2 a d) (ix2 d a)
    (fun b => by match b with | ⟨0, _⟩ => rfl | ⟨1, _⟩ => rfl)

/-- The output weights, contracted axis first, as the tiles find them. -/
theorem wo_t_eq (c : Dev nD) :
    (V m c main_v3 : S512x1024.Idx → EReal)
      = truncf (F := Ideal) (s := S512x1024) (φ := .f32) .bf16
          (transpose (α := EReal) S512x1024 [1, 0] (woArg m c) transposes_S1024x512_S512x1024_1_0) bitsLt_bf16_f32 := by
  dsimp only [V, hostOps0]
  after_results

/-- Read at (d, v): Wo[v,d]. -/
theorem wo_t_at (c : Dev nD) (d : Fin 512) (v : Fin 1024) :
    (V m c main_v3 : S512x1024.Idx → EReal) (ix2 d v) = woArg m c (ix2 v d) := by
  refine (congrFun (wo_t_eq m c) (ix2 d v)).trans ?_
  refine (truncf_apply (s := S512x1024) (φ := .f32) (ψ := .bf16) _ bitsLt_bf16_f32 (ix2 d v)).trans ?_
  exact transpose_apply [1, 0] (woArg m c) transposes_S1024x512_S512x1024_1_0 (ix2 d v) (ix2 v d)
    (fun b => by match b with | ⟨0, _⟩ => rfl | ⟨1, _⟩ => rfl)

end Cert.Joint.Prep

end
-- ==== Proof.TileReads.lean ====
/-
  Where a tile sits in the arrays.

  The grid has 8 × 16 points; the point (q0, q1) works on batch entry q0 and on the 16 source frames 16·q1 … 16·q1 + 15.
  Its source tile is rows (q0, 16·q1 + r) of the source encodings, its target tile is all 64 positions of batch entry q0,
  its biasing tile is rows (q0, 16·q1 + r, ·) of hptr, the two weight matrices and the output bias are read whole, and
  both result tiles are rows (q0, 16·q1 + r, ·) of the result arrays. All of this is decided once over the 128 points
  (`tile_index`); below, each input tile is read at coordinates as an entry of the argument arrays, and
  `hidden_point` puts the tile's arithmetic and these reads together: the hidden tile at (r, u, d) is the hidden
  activation at (q0, 16·q1 + r, u, d). The only algebra is the regrouping of four summands.
-/
import proofs.«102210_j5497558139009_2_alg».proof.Proof.Gen.KernelIdeal.Value
import proofs.«102210_j5497558139009_2_alg».proof.Proof.JointSpec
import proofs.«102210_j5497558139009_2_alg».proof.Proof.TileArith
import proofs.«102210_j5497558139009_2_alg».proof.Proof.HostPrep

noncomputable section

open scoped BigOperators

namespace Cert.Joint.Reads

open Cert.KernelIdeal Cert.KernelIdeal.Gen Idealize.ShloMosaic Idealize.ShloMosaic.TcCoe Idealize.SL.Sem
open Idealize.ShloMosaic.ValueIdx Cert.Joint

variable (m : (ℓ : Loc nD τ sig) → Buf (Elt Ideal) ℓ)

/-- The hidden activations of the launched arguments, one array [8, 256, 64, 512]. -/
abbrev hiddenArr (c : Dev nD) : S8x256x64x512.Idx → EReal :=
  hidden (Prep.srcArg m c) (Prep.tgtArg m c) (Prep.hptrArg m c) (Prep.wbArg m c) (Prep.bbArg m c)

/-- The outputs of the launched arguments, one array [8, 256, 64, 1024]. -/
abbrev outputArr (c : Dev nD) : S8x256x64x1024.Idx → EReal :=
  output (Prep.srcArg m c) (Prep.tgtArg m c) (Prep.hptrArg m c) (Prep.wbArg m c) (Prep.bbArg m c) (Prep.woArg m c) (Prep.boArg m c)

/-- A tile is loaded and stored whole: every offset is zero. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The block indices of the eight windows at a grid point, relative to the hidden result's: the source, biasing and
    output tiles move with it on the batch and frame axes, the target tile on the batch axis only, everything else
    stays at block 0; the batch block index is below 8 and the frame block index below 16. -/
theorem tile_index : ∀ t : Fin cfg0.N,
    win0_0.index t (0 : Fin 3) = win0_6.index t (0 : Fin 4) ∧ win0_0.index t (1 : Fin 3) = win0_6.index t (1 : Fin 4)
    ∧ win0_0.index t (2 : Fin 3) = 0
    ∧ win0_1.index t (0 : Fin 3) = win0_6.index t (0 : Fin 4) ∧ win0_1.index t (1 : Fin 3) = 0 ∧ win0_1.index t (2 : Fin 3) = 0
    ∧ win0_2.index t (0 : Fin 4) = win0_6.index t (0 : Fin 4) ∧ win0_2.index t (1 : Fin 4) = win0_6.index t (1 : Fin 4)
    ∧ win0_2.index t (2 : Fin 4) = 0 ∧ win0_2.index t (3 : Fin 4) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (2 : Fin 4) = 0 ∧ win0_6.index t (3 : Fin 4) = 0
    ∧ win0_7.index t (0 : Fin 4) = win0_6.index t (0 : Fin 4) ∧ win0_7.index t (1 : Fin 4) = win0_6.index t (1 : Fin 4)
    ∧ win0_7.index t (2 : Fin 4) = 0 ∧ win0_7.index t (3 : Fin 4) = 0
    ∧ win0_6.index t (0 : Fin 4) ≤ 7 ∧ win0_6.index t (1 : Fin 4) ≤ 15 :=
  (by decide +kernel : ∀ t : Fin grid0.N, _)

/-! ## Each input tile as entries of the arguments -/

/-- The source tile at (0, r, d) is the source encoding at (B, T, d), for the point's batch entry B and frame T. -/
theorem src_read (c : Dev nD) (t : Fin cfg0.N) (B : Fin 8) (T : Fin 256) (r : Fin 16) (d : Fin 512)
    (hB : B.val = win0_0.index t (0 : Fin 3)) (hT : T.val = win0_0.index t (1 : Fin 3) * 16 + r.val)
    (h2 : win0_0.index t (2 : Fin 3) = 0) :
    (iblk m c 0 t : Vec Ideal S1x16x512 .f32) (ix3 (0 : Fin 1) r d)
      = Prep.srcArg m c (ix3 B T d) := by
  unfold iblk
  rw [View.read_apply]
  show V m c main_arg0 (((cfg0.win 0).blk t).view.emb (ix3 (0 : Fin 1) r d)) = _
  refine (congrFun (V_main_arg0 m c) _).trans
    (congrArg (Prep.srcArg m c) (funext fun a => Fin.ext ?_))
  match a with
  | ⟨0, _⟩ => show win0_0.index t (0 : Fin 3) * 1 + 1 * 0 = B.val; omega
  | ⟨1, _⟩ => show win0_0.index t (1 : Fin 3) * 16 + 1 * r.val = T.val; omega
  | ⟨2, _⟩ => show win0_0.index t (2 : Fin 3) * 512 + 1 * d.val = d.val; omega

/-- The target tile at (0, u, d) is the target encoding at (B, u, d) plus the projection's bias at d. -/
theorem tgt_read (c : Dev nD) (t : Fin cfg0.N) (B : Fin 8) (u : Fin 64) (d : Fin 512)
    (hB : B.val = win0_1.index t (0 : Fin 3)) (h1 : win0_1.index t (1 : Fin 3) = 0) (h2 : win0_1.index t (2 : Fin 3) = 0) :
    (iblk m c 1 t : Vec Ideal S1x64x512 .f32) (ix3 (0 : Fin 1) u d)
      = Prep.tgtArg m c (ix3 B u d)
        + Prep.bbArg m c (ix1 d) := by
  unfold iblk
  rw [View.read_apply]
  show (V m c main_v6 : S8x64x512.Idx → EReal) (((cfg0.win 1).blk t).view.emb (ix3 (0 : Fin 1) u d)) = _
  refine (congrArg (V m c main_v6 : S8x64x512.Idx → EReal) (funext fun a => Fin.ext ?_)).trans (Prep.tgt_plus_at m c B u d)
  match a with
  | ⟨0, _⟩ => show win0_1.index t (0 : Fin 3) * 1 + 1 * 0 = B.val; omega
  | ⟨1, _⟩ => show win0_1.index t (1 : Fin 3) * 64 + 1 * u.val = u.val; omega
  | ⟨2, _⟩ => show win0_1.index t (2 : Fin 3) * 512 + 1 * d.val = d.val; omega

/-- The biasing tile at (0, r, u, a) is hptr at (B, T, u, a). -/
theorem hptr_read (c : Dev nD) (t : Fin cfg0.N) (B : Fin 8) (T : Fin 256) (r : Fin 16) (u : Fin 64) (a : Fin 256)
    (hB : B.val = win0_2.index t (0 : Fin 4)) (hT : T.val = win0_2.index t (1 : Fin 4) * 16 + r.val)
    (h2 : win0_2.index t (2 : Fin 4) = 0) (h3 : win0_2.index t (3 : Fin 4) = 0) :
    (iblk m c 2 t : Vec Ideal S1x16x64x256 .f32) (ix4 (0 : Fin 1) r u a)
      = Prep.hptrArg m c (ix4 B T u a) := by
  unfold iblk
  rw [View.read_apply]
  show V m c main_arg4 (((cfg0.win 2).blk t).view.emb (ix4 (0 : Fin 1) r u a)) = _
  refine (congrFun (V_main_arg4 m c) _).trans
    (congrArg (Prep.hptrArg m c) (funext fun x => Fin.ext ?_))
  match x with
  | ⟨0, _⟩ => show win0_2.index t (0 : Fin 4) * 1 + 1 * 0 = B.val; omega
  | ⟨1, _⟩ => show win0_2.index t (1 : Fin 4) * 16 + 1 * r.val = T.val; omega
  | ⟨2, _⟩ => show win0_2.index t (2 : Fin 4) * 64 + 1 * u.val = u.val; omega
  | ⟨3, _⟩ => show win0_2.index t (3 : Fin 4) * 256 + 1 * a.val = a.val; omega

/-- The projection-weight tile at (a, d) is Wb at (d, a). -/
theorem wb_read (c : Dev nD) (t : Fin cfg0.N) (a : Fin 256) (d : Fin 512)
    (h0 : win0_3.index t (0 : Fin 2) = 0) (h1 : win0_3.index t (1 : Fin 2) = 0) :
    (iblk m c 3 t : Vec Ideal S256x512 .bf16) (ix2 a d)
      = Prep.wbArg m c (ix2 d a) := by
  unfold iblk
  rw [View.read_apply]
  show (V m c main_v1 : S256x512.Idx → EReal) (((cfg0.win 3).blk t).view.emb (ix2 a d)) = _
  refine (congrArg (V m c main_v1 : S256x512.Idx → EReal) (funext fun x => Fin.ext ?_)).trans (Prep.wb_t_at m c a d)
  match x with
  | ⟨0, _⟩ => show win0_3.index t (0 : Fin 2) * 256 + 1 * a.val = a.val; omega
  | ⟨1, _⟩ => show win0_3.index t (1 : Fin 2) * 512 + 1 * d.val = d.val; omega

/-- The output-weight tile at (d, v) is Wo at (v, d). -/
theorem wo_read (c : Dev nD) (t : Fin cfg0.N) (d : Fin 512) (v : Fin 1024)
    (h0 : win0_4.index t (0 : Fin 2) = 0) (h1 : win0_4.index t (1 : Fin 2) = 0) :
    (iblk m c 4 t : Vec Ideal S512x1024 .bf16) (ix2 d v)
      = Prep.woArg m c (ix2 v d) := by
  unfold iblk
  rw [View.read_apply]
  show (V m c main_v3 : S512x1024.Idx → EReal) (((cfg0.win 4).blk t).view.emb (ix2 d v)) = _
  refine (congrArg (V m c main_v3 : S512x1024.Idx → EReal) (funext fun x => Fin.ext ?_)).trans (Prep.wo_t_at m c d v)
  match x with
  | ⟨0, _⟩ => show win0_4.index t (0 : Fin 2) * 512 + 1 * d.val = d.val; omega
  | ⟨1, _⟩ => show win0_4.index t (1 : Fin 2) * 1024 + 1 * v.val = v.val; omega

/-- The output-bias tile at v is the output bias at v. -/
theorem bo_read (c : Dev nD) (t : Fin cfg0.N) (v : Fin 1024) (h0 : win0_5.index t (0 : Fin 1) = 0) :
    (iblk m c 5 t : Vec Ideal S1024 .f32) (ix1 v) = Prep.boArg m c (ix1 v) := by
  unfold iblk
  rw [View.read_apply]
  show V m c main_arg8 (((cfg0.win 5).blk t).view.emb (ix1 v)) = _
  refine (congrFun (V_main_arg8 m c) _).trans
    (congrArg (Prep.boArg m c) (funext fun x => Fin.ext ?_))
  match x with
  | ⟨0, _⟩ => show win0_5.index t (0 : Fin 1) * 1024 + 1 * v.val = v.val; omega

/-! ## The hidden tile is a tile of the hidden activations -/

/-- The point's four input tiles of the hidden activation, by name. -/
abbrev srcTile (c : Dev nD) (t : Fin cfg0.N) : Vec Ideal S1x16x512 .f32 := iblk m c 0 t
abbrev tgtTile (c : Dev nD) (t : Fin cfg0.N) : Vec Ideal S1x64x512 .f32 := iblk m c 1 t
abbrev hptrTile (c : Dev nD) (t : Fin cfg0.N) : Vec Ideal S1x16x64x256 .f32 := iblk m c 2 t
abbrev wbTile (c : Dev nD) (t : Fin cfg0.N) : Vec Ideal S256x512 .bf16 := iblk m c 3 t

/-- The tile's arithmetic at (r, u, d), over the point's input tiles, is the hidden activation at (B, T, u, d):
    the reads above, and the four summands regrouped. -/
theorem hidden_point (c : Dev nD) (t : Fin cfg0.N) (B : Fin 8) (T : Fin 256) (r : Fin 16) (u : Fin 64) (d : Fin 512)
    (hB : B.val = win0_6.index t (0 : Fin 4)) (hT : T.val = win0_6.index t (1 : Fin 4) * 16 + r.val) :
    max ((srcTile m c t (ix3 (0 : Fin 1) r d) + tgtTile m c t (ix3 (0 : Fin 1) u d))
          + ∑ a : Fin 256, hptrTile m c t (ix4 (0 : Fin 1) r u a) * wbTile m c t (ix2 a d))
        (Ideal.ofBits .f32 0x00000000#32)
      = hiddenAt (Prep.srcArg m c) (Prep.tgtArg m c) (Prep.hptrArg m c) (Prep.wbArg m c) (Prep.bbArg m c) B T u d := by
  obtain ⟨e00, e01, e02, e10, e11, e12, e20, e21, e22, e23, e30, e31, e40, e41, e50, e62, e63, e70, e71, e72, e73, b0, b1⟩ := tile_index t
  unfold hiddenAt
  refine congrArg (max · (Ideal.ofBits .f32 0x00000000#32)) ?_
  refine Eq.trans ?_ (regroup (Prep.srcArg m c (ix3 B T d)) (Prep.tgtArg m c (ix3 B u d)) (Prep.bbArg m c (ix1 d))
    (∑ a : Fin 256, Prep.hptrArg m c (ix4 B T u a) * Prep.wbArg m c (ix2 d a)))
  exact congrArg₂ (· + ·)
    (congrArg₂ (· + ·) (src_read m c t B T r d (by omega) (by omega) e02) (tgt_read m c t B u d (by omega) e11 e12))
    (Finset.sum_congr rfl fun a _ =>
      congrArg₂ (· * ·) (hptr_read m c t B T r u a (by omega) (by omega) e22 e23) (wb_read m c t a d e30 e31))

end Cert.Joint.Reads

end
-- ==== Proof.HiddenArray.lean ====
/-
  The first result array after the run is the array of hidden activations.

  What a grid point writes back to the hidden result is its hidden tile, and the hidden tile at (0, r, u, d) is the
  hidden activation at the array index under it, (q0, 16·q1 + r, u, d): so each write-back is a block of ONE array,
  `hiddenArr`. The 128 blocks tile the array — index (b, t, u, d) lies in the block of the point (b, t / 16) — so after the
  run the array is `hiddenArr`.
-/
import proofs.«102210_j5497558139009_2_alg».proof.Proof.TileReads

noncomputable section

open scoped BigOperators

namespace Cert.Joint.Hidden

open Cert.KernelIdeal Cert.KernelIdeal.Gen Idealize.ShloMosaic Idealize.ShloMosaic.TcCoe Idealize.SL.Sem
open Idealize.ShloMosaic.ValueIdx Cert.Joint
open Idealize.ShloMosaic.Pipeline (Dat)

variable (m : (ℓ : Loc nD τ sig) → Buf (Elt Ideal) ℓ)

/-- What one store of the hidden tile leaves in its buffer, at (z, r, u, d), over any four input tiles. -/
theorem hidden_block (x0 : Vec Ideal S1x16x512 .f32) (x1 : Vec Ideal S1x64x512 .f32) (x2 : Vec Ideal S1x16x64x256 .f32)
    (x3 : Vec Ideal S256x512 .bf16) (z : Fin 1) (r : Fin 16) (u : Fin 64) (d : Fin 512) :
    View.canon ([⟨r0_4, k0_pay3 (F := Ideal) x0 x1 x2 x3⟩] : List (View.Piece (Elt Ideal) S1x16x64x512 .f32)) (ix4 z r u d)
      = max ((x0 (ix3 (0 : Fin 1) r d) + x1 (ix3 (0 : Fin 1) u d)) + ∑ a : Fin 256, x2 (ix4 (0 : Fin 1) r u a) * x3 (ix2 a d))
          (Ideal.ofBits .f32 0x00000000#32) := by
  refine (Value.canon6_eq x0 x1 x2 x3 (ix4 z r u d)).trans ?_
  show k0_pay2 (F := Ideal) x0 x1 x2 x3 (Value.ix6_0 (ix4 z r u d)) = _
  have e : Value.ix6_0 (ix4 z r u d) = ix3 r u d :=
    funext fun a => by match a with | ⟨0, _⟩ => rfl | ⟨1, _⟩ => rfl | ⟨2, _⟩ => rfl
  rw [e]
  exact Tile.hidden_tile x0 x1 x2 x3 r u d

/-- WHAT POINT `t` WRITES BACK to the hidden result is block `t` of `hiddenArr`. -/
theorem flushed_eq (c : Dev nD) (t : Fin cfg0.N) :
    (dats m 0 c).flushed 6 t = ((cfg0.win 6).blk t).view.read (Elt Ideal) (Reads.hiddenArr m c) := by
  obtain ⟨e00, e01, e02, e10, e11, e12, e20, e21, e22, e23, e30, e31, e40, e41, e50, e62, e63, e70, e71, e72, e73, b0, b1⟩ := Reads.tile_index t
  show (cfg0.win 6).cut (grid0.coords t) ((dats m 0 c).after 6 t) = _
  rw [after0_6]
  unfold out0_6
  simp only [View.ld_unit_zero (S := S1x16x512) Reads.hz3, View.ld_unit_zero (S := S1x64x512) Reads.hz3,
    View.ld_unit_zero (S := S1x16x64x256) Reads.hz4, View.ld_unit_zero (S := S256x512) Reads.hz2]
  refine funext fun (y : S1x16x64x512.Idx) => ?_
  obtain ⟨z, r, u, d, rfl⟩ : ∃ (z : Fin 1) (r : Fin 16) (u : Fin 64) (d : Fin 512), y = ix4 z r u d :=
    ⟨y 0, y 1, y 2, y 3, eq_ix4 y⟩
  have hr : r.val < 16 := r.isLt
  have hzv : z.val < 1 := z.isLt
  obtain ⟨B, hB⟩ : ∃ B : Fin 8, B.val = win0_6.index t (0 : Fin 4) := ⟨⟨win0_6.index t (0 : Fin 4), by omega⟩, rfl⟩
  obtain ⟨T, hT⟩ : ∃ T : Fin 256, T.val = win0_6.index t (1 : Fin 4) * 16 + r.val :=
    ⟨⟨win0_6.index t (1 : Fin 4) * 16 + r.val, by omega⟩, rfl⟩
  have hemb : ((cfg0.win 6).blk t).view.emb (ix4 z r u d) = ix4 B T u d := funext fun a => Fin.ext (by
    match a with
    | ⟨0, _⟩ => show win0_6.index t (0 : Fin 4) * 1 + 1 * z.val = B.val; omega
    | ⟨1, _⟩ => show win0_6.index t (1 : Fin 4) * 16 + 1 * r.val = T.val; omega
    | ⟨2, _⟩ => show win0_6.index t (2 : Fin 4) * 64 + 1 * u.val = u.val; omega
    | ⟨3, _⟩ => show win0_6.index t (3 : Fin 4) * 512 + 1 * d.val = d.val; omega)
  show View.canon ([⟨r0_4, k0_pay3 (F := Ideal) (iblk m c 0 t) (iblk m c 1 t) (iblk m c 2 t) (iblk m c 3 t)⟩] :
        List (View.Piece (Elt Ideal) S1x16x64x512 .f32)) (ix4 z r u d)
      = Reads.hiddenArr m c (((cfg0.win 6).blk t).view.emb (ix4 z r u d))
  rw [hemb]
  refine (hidden_block (iblk m c 0 t) (iblk m c 1 t) (iblk m c 2 t) (iblk m c 3 t) z r u d).trans ?_
  exact Reads.hidden_point m c t B T r u d hB hT

/-- Every block of the hidden result is some point's: (q0, q1, 0, 0) for each batch entry and each group of 16 frames. -/
theorem onto : ∀ (q0 : Fin 8) (q1 : Fin 16), ∃ t : Fin cfg0.N, win0_6.index t = ![q0.val, q1.val, 0, 0] :=
  (by decide +kernel : ∀ (q0 : Fin 8) (q1 : Fin 16), ∃ t : Fin grid0.N, win0_6.index t = ![q0.val, q1.val, 0, 0])

/-- An index of the array is in point `t`'s block iff each coordinate is in the block's range on its axis. -/
theorem mem_blk (t : Fin cfg0.N) (i : S8x256x64x512.Idx) :
    i ∈ ((cfg0.win 6).blk t).view.set ↔ ∀ a : Fin 4, win0_6.index t a * S1x16x64x512.size a ≤ (i a).val
      ∧ (i a).val < win0_6.index t a * S1x16x64x512.size a + S1x16x64x512.size a := by
  show i ∈ ((View.whole main_v7_0).slice (win0_6.rect t)).set ↔ _
  rw [View.set_slice_whole, Rect.mem_set_unit]
  exact Iff.rfl

/-- The blocks tile the array: (b, t, u, d) is in the block of the point (b, t / 16). -/
theorem cover (i : S8x256x64x512.Idx) :
    ∃ t : Fin cfg0.N, (cfg0.win 6).flush t = true ∧ i ∈ ((cfg0.win 6).blk t).view.set := by
  have h0 : (i 0).val < 8 := (i 0).isLt
  have h1 : (i 1).val < 256 := (i 1).isLt
  have h2 : (i 2).val < 64 := (i 2).isLt
  have h3 : (i 3).val < 512 := (i 3).isLt
  obtain ⟨t, ht⟩ := onto ⟨(i 0).val, h0⟩ ⟨(i 1).val / 16, by omega⟩
  have q0 : win0_6.index t (0 : Fin 4) = (i 0).val := congrFun ht 0
  have q1 : win0_6.index t (1 : Fin 4) = (i 1).val / 16 := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 16 ≤ (i 1).val ∧ (i 1).val < win0_6.index t (1 : Fin 4) * 16 + 16; omega
  | ⟨2, _⟩ => show win0_6.index t (2 : Fin 4) * 64 ≤ (i 2).val ∧ (i 2).val < win0_6.index t (2 : Fin 4) * 64 + 64; omega
  | ⟨3, _⟩ => show win0_6.index t (3 : Fin 4) * 512 ≤ (i 3).val ∧ (i 3).val < win0_6.index t (3 : Fin 4) * 512 + 512; omega

/-- THE HIDDEN RESULT after the run is `hiddenArr`. -/
theorem final (c : Dev nD) : (dats m 0 c).arrAt 6 cfg0.N = Reads.hiddenArr m c :=
  (dats m 0 c).arrAt_eq_of_cover 6 (Reads.hiddenArr m c) (fun t _ => flushed_eq m c t) cover

end Cert.Joint.Hidden

end
-- ==== Proof.OutputArray.lean ====
/-
  The second result array after the run is the array of outputs.

  What a grid point writes back to the output result is its output tile: at (0, r, u, v) the hidden tile's row (r, u)
  against column v of the output-weight tile, plus the bias tile at v. The hidden tile's entries are hidden activations
  at (q0, 16·q1 + r, u, ·), the weight tile at (d, v) is Wo[v,d], the bias tile is the output bias: so the tile entry is
  the output at the array index under it, each write-back is a block of ONE array, `outputArr`, and the 128 blocks tile
  that array as they tile the hidden result.
-/
import proofs.«102210_j5497558139009_2_alg».proof.Proof.TileReads

noncomputable section

open scoped BigOperators

namespace Cert.Joint.Output

open Cert.KernelIdeal Cert.KernelIdeal.Gen Idealize.ShloMosaic Idealize.ShloMosaic.TcCoe Idealize.SL.Sem
open Idealize.ShloMosaic.ValueIdx Cert.Joint
open Idealize.ShloMosaic.Pipeline (Dat)

variable (m : (ℓ : Loc nD τ sig) → Buf (Elt Ideal) ℓ)

/-- What one store of the output tile leaves in its buffer, at (z, r, u, v), over any six input tiles. -/
theorem output_block (x0 : Vec Ideal S1x16x512 .f32) (x1 : Vec Ideal S1x64x512 .f32) (x2 : Vec Ideal S1x16x64x256 .f32)
    (x3 : Vec Ideal S256x512 .bf16) (x4 : Vec Ideal S512x1024 .bf16) (x5 : Vec Ideal S1024 .f32)
    (z : Fin 1) (r : Fin 16) (u : Fin 64) (v : Fin 1024) :
    View.canon ([⟨r0_7, k0_pay1 (k0_pay4 (F := Ideal) x0 x1 x2 x3 x4 x5)⟩] : List (View.Piece (Elt Ideal) S1x16x64x1024 .f32)) (ix4 z r u v)
      = (∑ k : Fin 512,
            max ((x0 (ix3 (0 : Fin 1) r k) + x1 (ix3 (0 : Fin 1) u k)) + ∑ a : Fin 256, x2 (ix4 (0 : Fin 1) r u a) * x3 (ix2 a k))
              (Ideal.ofBits .f32 0x00000000#32) * x4 (ix2 k v))
        + x5 (ix1 v) := by
  refine (Value.canon7_eq x0 x1 x2 x3 x4 x5 (ix4 z r u v)).trans ?_
  show k0_pay4 (F := Ideal) x0 x1 x2 x3 x4 x5 (Value.ix7_0 (ix4 z r u v)) = _
  have e : Value.ix7_0 (ix4 z r u v) = ix3 r u v :=
    funext fun a => by match a with | ⟨0, _⟩ => rfl | ⟨1, _⟩ => rfl | ⟨2, _⟩ => rfl
  rw [e]
  refine (Tile.output_tile x0 x1 x2 x3 x4 x5 r u v).trans ?_
  refine congrArg (· + x5 (ix1 v)) (Finset.sum_congr rfl fun k _ => ?_)
  rw [Tile.hidden_tile]

/-- WHAT POINT `t` WRITES BACK to the output result is block `t` of `outputArr`. -/
theorem flushed_eq (c : Dev nD) (t : Fin cfg0.N) :
    (dats m 0 c).flushed 7 t = ((cfg0.win 7).blk t).view.read (Elt Ideal) (Reads.outputArr m c) := by
  obtain ⟨e00, e01, e02, e10, e11, e12, e20, e21, e22, e23, e30, e31, e40, e41, e50, e62, e63, e70, e71, e72, e73, b0, b1⟩ := Reads.tile_index t
  show (cfg0.win 7).cut (grid0.coords t) ((dats m 0 c).after 7 t) = _
  rw [after0_7]
  unfold out0_7
  simp only [View.ld_unit_zero (S := S1x16x512) Reads.hz3, View.ld_unit_zero (S := S1x64x512) Reads.hz3,
    View.ld_unit_zero (S := S1x16x64x256) Reads.hz4, View.ld_unit_zero (S := S256x512) Reads.hz2,
    View.ld_unit_zero (S := S512x1024) Reads.hz2, View.ld_unit_zero (S := S1024) Reads.hz1]
  refine funext fun (y : S1x16x64x1024.Idx) => ?_
  obtain ⟨z, r, u, v, rfl⟩ : ∃ (z : Fin 1) (r : Fin 16) (u : Fin 64) (v : Fin 1024), y = ix4 z r u v :=
    ⟨y 0, y 1, y 2, y 3, eq_ix4 y⟩
  have hr : r.val < 16 := r.isLt
  have hzv : z.val < 1 := z.isLt
  obtain ⟨B, hB⟩ : ∃ B : Fin 8, B.val = win0_6.index t (0 : Fin 4) := ⟨⟨win0_6.index t (0 : Fin 4), by omega⟩, rfl⟩
  obtain ⟨T, hT⟩ : ∃ T : Fin 256, T.val = win0_6.index t (1 : Fin 4) * 16 + r.val :=
    ⟨⟨win0_6.index t (1 : Fin 4) * 16 + r.val, by omega⟩, rfl⟩
  have hemb : ((cfg0.win 7).blk t).view.emb (ix4 z r u v) = ix4 B T u v := funext fun a => Fin.ext (by
    match a with
    | ⟨0, _⟩ => show win0_7.index t (0 : Fin 4) * 1 + 1 * z.val = B.val; omega
    | ⟨1, _⟩ => show win0_7.index t (1 : Fin 4) * 16 + 1 * r.val = T.val; omega
    | ⟨2, _⟩ => show win0_7.index t (2 : Fin 4) * 64 + 1 * u.val = u.val; omega
    | ⟨3, _⟩ => show win0_7.index t (3 : Fin 4) * 1024 + 1 * v.val = v.val; omega)
  show View.canon ([⟨r0_7, k0_pay1 (k0_pay4 (F := Ideal) (iblk m c 0 t) (iblk m c 1 t) (iblk m c 2 t) (iblk m c 3 t) (iblk m c 4 t) (iblk m c 5 t))⟩] :
        List (View.Piece (Elt Ideal) S1x16x64x1024 .f32)) (ix4 z r u v)
      = Reads.outputArr m c (((cfg0.win 7).blk t).view.emb (ix4 z r u v))
  rw [hemb]
  refine (output_block (iblk m c 0 t) (iblk m c 1 t) (iblk m c 2 t) (iblk m c 3 t) (iblk m c 4 t) (iblk m c 5 t) z r u v).trans ?_
  show _ = outputAt (Prep.srcArg m c) (Prep.tgtArg m c) (Prep.hptrArg m c) (Prep.wbArg m c) (Prep.bbArg m c) (Prep.woArg m c) (Prep.boArg m c) B T u v
  unfold outputAt
  exact congrArg₂ (· + ·)
    (Finset.sum_congr rfl fun k _ => congrArg₂ (· * ·) (Reads.hidden_point m c t B T r u k hB hT) (Reads.wo_read m c t k v e40 e41))
    (Reads.bo_read m c t v e50)

/-- Every block of the output result is some point's. -/
theorem onto : ∀ (q0 : Fin 8) (q1 : Fin 16), ∃ t : Fin cfg0.N, win0_7.index t = ![q0.val, q1.val, 0, 0] :=
  (by decide +kernel : ∀ (q0 : Fin 8) (q1 : Fin 16), ∃ t : Fin grid0.N, win0_7.index t = ![q0.val, q1.val, 0, 0])

/-- An index of the array is in point `t`'s block iff each coordinate is in the block's range on its axis. -/
theorem mem_blk (t : Fin cfg0.N) (i : S8x256x64x1024.Idx) :
    i ∈ ((cfg0.win 7).blk t).view.set ↔ ∀ a : Fin 4, win0_7.index t a * S1x16x64x1024.size a ≤ (i a).val
      ∧ (i a).val < win0_7.index t a * S1x16x64x1024.size a + S1x16x64x1024.size a := by
  show i ∈ ((View.whole main_v7_1).slice (win0_7.rect t)).set ↔ _
  rw [View.set_slice_whole, Rect.mem_set_unit]
  exact Iff.rfl

/-- The blocks tile the array: (b, t, u, v) is in the block of the point (b, t / 16). -/
theorem cover (i : S8x256x64x1024.Idx) :
    ∃ t : Fin cfg0.N, (cfg0.win 7).flush t = true ∧ i ∈ ((cfg0.win 7).blk t).view.set := by
  have h0 : (i 0).val < 8 := (i 0).isLt
  have h1 : (i 1).val < 256 := (i 1).isLt
  have h2 : (i 2).val < 64 := (i 2).isLt
  have h3 : (i 3).val < 1024 := (i 3).isLt
  obtain ⟨t, ht⟩ := onto ⟨(i 0).val, h0⟩ ⟨(i 1).val / 16, by omega⟩
  have q0 : win0_7.index t (0 : Fin 4) = (i 0).val := congrFun ht 0
  have q1 : win0_7.index t (1 : Fin 4) = (i 1).val / 16 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 64 ≤ (i 2).val ∧ (i 2).val < win0_7.index t (2 : Fin 4) * 64 + 64; omega
  | ⟨3, _⟩ => show win0_7.index t (3 : Fin 4) * 1024 ≤ (i 3).val ∧ (i 3).val < win0_7.index t (3 : Fin 4) * 1024 + 1024; omega

/-- THE OUTPUT RESULT after the run is `outputArr`. -/
theorem final (c : Dev nD) : (dats m 0 c).arrAt 7 cfg0.N = Reads.outputArr m c :=
  (dats m 0 c).arrAt_eq_of_cover 7 (Reads.outputArr m c) (fun t _ => flushed_eq m c t) cover

end Cert.Joint.Output

end
-- ==== Proof.KernelRun.lean ====
/-
  The idealized kernel's run, read: every weakly fair execution ends with the hidden result at the array of hidden
  activations and the output result at the array of outputs of the launched arguments, the arguments unchanged.
-/
import proofs.«102210_j5497558139009_2_alg».proof.Proof.HiddenArray
import proofs.«102210_j5497558139009_2_alg».proof.Proof.OutputArray

noncomputable section

namespace Cert.Joint.Kernel

open Cert.KernelIdeal Cert.KernelIdeal.Gen Idealize.ShloMosaic Idealize.ShloMosaic.TcCoe Idealize.SL.Sem Cert.Joint

variable (m : (ℓ : Loc nD τ sig) → Buf (Elt Ideal) ℓ) (ρ : Dev nD → PrngReg)

/-- The run with both result arrays named by the specification. -/
theorem run : θ_run defs (onTc (τ := τ) (main (F := Ideal))) ⟨m, fun _ => 0, ρ⟩ fun r => ∀ c : Dev nD,
      r.2.mem ((c : Thread nD τ).loc main_v7_0) = Reads.hiddenArr m c
      ∧ r.2.mem ((c : Thread nD τ).loc main_v7_1) = Reads.outputArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono
    (fun r h c => ⟨(h c).1.trans (Hidden.final m c), (h c).2.1.trans (Output.final m c), (h c).2.2⟩)
    (Cert.KernelIdeal.Value.run_blocks m ρ)

end Cert.Joint.Kernel

end
-- ==== Proof.RefJoint.lean ====
/-
  The reference computes the joint network's two results as stated in JointSpec: reading its operations one at a time
  at an index (b, t, u, d), the two broadcasts of the source and target encodings pick src[b,t,d] and tgt[b,u,d], the
  contraction over the last axis of hptr against the last axis of Wb is Σ_a hptr[b,t,u,a] · Wb[d,a], the bias is read
  at d, and the maximum with the zero splat is the positive part; the second contraction runs over the features of the
  hidden activation against row v of Wo, and the output bias is read at v.
-/
import proofs.«102210_j5497558139009_2_alg».proof.Proof.Gen.ReferenceIdeal.Read
import proofs.«102210_j5497558139009_2_alg».proof.Proof.JointSpec

noncomputable section

open scoped BigOperators

namespace Cert.Joint.Ref

open Cert.ReferenceIdeal Cert.ReferenceIdeal.Read Idealize.ShloMosaic Idealize.ShloMosaic.ValueIdx Cert.Joint

/-- The reference's hidden activation, stage by stage, is `hidden` of its arguments. -/
theorem hidden_eq (x0 : (⟨S8x256x512, .f32⟩ : BufTy).Contents (Elt Ideal)) (x2 : (⟨S8x64x512, .f32⟩ : BufTy).Contents (Elt Ideal))
    (x4 : (⟨S8x256x64x256, .f32⟩ : BufTy).Contents (Elt Ideal)) (x5 : (⟨S512x256, .f32⟩ : BufTy).Contents (Elt Ideal))
    (x6 : (⟨S512, .f32⟩ : BufTy).Contents (Elt Ideal)) :
    val_main_v10 (F := Ideal) x0 x2 x4 x5 x6 = hidden x0 x2 x4 x5 x6 := by
  funext i
  obtain ⟨b, t, u, d, rfl⟩ : ∃ (b : Fin 8) (t : Fin 256) (u : Fin 64) (d : Fin 512), i = ix4 b t u d :=
    ⟨i 0, i 1, i 2, i 3, eq_ix4 i⟩
  have e0 : idx_main_v0 (idx_main_v2 (ix4 b t u d)) = ix3 b t d :=
    funext fun a => by match a with | ⟨0, _⟩ => rfl | ⟨1, _⟩ => rfl | ⟨2, _⟩ => rfl
  have e2 : idx_main_v1 (idx_main_v3 (ix4 b t u d)) = ix3 b u d :=
    funext fun a => by match a with | ⟨0, _⟩ => rfl | ⟨1, _⟩ => rfl | ⟨2, _⟩ => rfl
  have e4 : ∀ k : Fin 256, lidx_main_v5 (ix4 b t u d) k = ix4 b t u k := fun k =>
    funext fun a => by match a with | ⟨0, _⟩ => rfl | ⟨1, _⟩ => rfl | ⟨2, _⟩ => rfl | ⟨3, _⟩ => rfl
  have e5 : ∀ k : Fin 256, ridx_main_v5 (ix4 b t u d) k = ix2 d k := fun k =>
    funext fun a => by match a with | ⟨0, _⟩ => rfl | ⟨1, _⟩ => rfl
  have e6 : idx_main_v7 (idx_main_v8 (ix4 b t u d)) = ix1 d :=
    funext fun a => by match a with | ⟨0, _⟩ => rfl
  rw [val_main_v10_apply, val_main_v9_apply, val_main_v6_apply, val_main_v4_apply, val_main_v2_apply, val_main_v0_apply,
    val_main_v3_apply, val_main_v1_apply, val_main_v5_apply, val_main_v8_apply, val_main_v7_apply,
    val_main_call0_v0_apply, val_main_call0_cst_apply, e0, e2, e6]
  simp only [e4, e5]
  rfl

/-- The reference's output, stage by stage, is `output` of its arguments. -/
theorem output_eq (x0 : (⟨S8x256x512, .f32⟩ : BufTy).Contents (Elt Ideal)) (x2 : (⟨S8x64x512, .f32⟩ : BufTy).Contents (Elt Ideal))
    (x4 : (⟨S8x256x64x256, .f32⟩ : BufTy).Contents (Elt Ideal)) (x5 : (⟨S512x256, .f32⟩ : BufTy).Contents (Elt Ideal))
    (x6 : (⟨S512, .f32⟩ : BufTy).Contents (Elt Ideal)) (x7 : (⟨S1024x512, .f32⟩ : BufTy).Contents (Elt Ideal))
    (x8 : (⟨S1024, .f32⟩ : BufTy).Contents (Elt Ideal)) :
    val_main_v14 (F := Ideal) x0 x2 x4 x5 x6 x7 x8 = output x0 x2 x4 x5 x6 x7 x8 := by
  funext i
  obtain ⟨b, t, u, v, rfl⟩ : ∃ (b : Fin 8) (t : Fin 256) (u : Fin 64) (v : Fin 1024), i = ix4 b t u v :=
    ⟨i 0, i 1, i 2, i 3, eq_ix4 i⟩
  have el : ∀ k : Fin 512, lidx_main_v11 (ix4 b t u v) k = ix4 b t u k := fun k =>
    funext fun a => by match a with | ⟨0, _⟩ => rfl | ⟨1, _⟩ => rfl | ⟨2, _⟩ => rfl | ⟨3, _⟩ => rfl
  have er : ∀ k : Fin 512, ridx_main_v11 (ix4 b t u v) k = ix2 v k := fun k =>
    funext fun a => by match a with | ⟨0, _⟩ => rfl | ⟨1, _⟩ => rfl
  have e8 : idx_main_v12 (idx_main_v13 (ix4 b t u v)) = ix1 v :=
    funext fun a => by match a with | ⟨0, _⟩ => rfl
  rw [val_main_v14_apply, val_main_v11_apply, val_main_v13_apply, val_main_v12_apply, e8, hidden_eq]
  simp only [el, er]
  rfl

end Cert.Joint.Ref

end
-- ==== Proof.lean ====
/-
  A joint network with a biasing projection, tiled over source frames, against its plain reference, over the extended
  reals.

  Both programs compute, for a batch entry b, a source frame t and a target position u, the hidden activation
      hidden[b,t,u,d] = max(src[b,t,d] + tgt[b,u,d] + Σ_a hptr[b,t,u,a] · Wb[d,a] + bb[d], 0)
  and the output
      out[b,t,u,v] = Σ_d hidden[b,t,u,d] · Wo[v,d] + bo[v],
  and return the two integer length arrays as they came. The kernel adds the bias bb to the target encodings before its
  tiles run and adds the projection last; the reference adds source and target, then the projection, then the bias. On
  the extended reals addition is commutative and associative, so the two orders give one number at every index, whatever
  the inputs (the precondition is not used for it); the matrix products are plain sums of products on both sides, and the
  changes of float format are the identity. The kernel works tile by tile over 8 × 16 grid points; its tiles cover the
  two result arrays exactly.

  The frames of the two kernel programs and the reference's run are the generated ones; no operation of the kernel was
  rewritten in idealizing it, so the idealized kernel is the kernel's own text read over the extended reals.
-/
import proofs.«102210_j5497558139009_2_alg».proof.Defs
import proofs.«102210_j5497558139009_2_alg».proof.Proof.Gen.Kernel
import proofs.«102210_j5497558139009_2_alg».proof.Proof.Gen.Kernel.Skeleton
import proofs.«102210_j5497558139009_2_alg».proof.Proof.Gen.Kernel.Launch
import proofs.«102210_j5497558139009_2_alg».proof.Proof.Gen.Kernel.Points
import proofs.«102210_j5497558139009_2_alg».proof.Proof.Gen.Kernel.Frame
import proofs.«102210_j5497558139009_2_alg».proof.Proof.Gen.KernelIdeal
import proofs.«102210_j5497558139009_2_alg».proof.Proof.Gen.KernelIdeal.Skeleton
import proofs.«102210_j5497558139009_2_alg».proof.Proof.Gen.KernelIdeal.Launch
import proofs.«102210_j5497558139009_2_alg».proof.Proof.Gen.KernelIdeal.Points
import proofs.«102210_j5497558139009_2_alg».proof.Proof.Gen.KernelIdeal.Frame
import proofs.«102210_j5497558139009_2_alg».proof.Proof.Gen.ReferenceIdeal
import proofs.«102210_j5497558139009_2_alg».proof.Proof.Gen.Pre_finite_inputs
import proofs.«102210_j5497558139009_2_alg».proof.Proof.Gen.KernelIdeal.Value
import proofs.«102210_j5497558139009_2_alg».proof.Proof.Gen.ReferenceIdeal.Run
import proofs.«102210_j5497558139009_2_alg».proof.Proof.Gen.ReferenceIdeal.Read
import proofs.«102210_j5497558139009_2_alg».proof.Proof.KernelRun
import proofs.«102210_j5497558139009_2_alg».proof.Proof.RefJoint
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with the results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- No operation of the kernel was rewritten in idealizing it: nothing to preserve. -/
theorem preserves : Cert.preserves_Kernel_KernelIdeal := trivial

/-- From arguments that agree, the kernel's two result arrays end at the hidden activations and the outputs of its
    arguments (the tiles cover the arrays), the reference's at the same two functions of its own (its operations read one
    at a time), and the two length arrays pass through both programs untouched. -/
theorem algebraic : Cert.algebraic_KernelIdeal_ReferenceIdeal := by
  intro m ρ m' ρ' _ hagree
  refine ⟨fun c => Cert.Joint.Reads.outputArr m c,
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg3),
    fun c => Cert.Joint.Reads.hiddenArr m c, ?_, ?_⟩
  · refine (θ_run Cert.KernelIdeal.defs _ _).mono (fun r h c => ?_) (Cert.Joint.Kernel.run m ρ)
    obtain ⟨h70, h71, a0, a1, a2, a3, a4, a5, a6, a7, a8⟩ := h c
    exact ⟨h71, a1, a3, h70, a0, a1, a2, a3, a4, a5, a6, a7, a8⟩
  · refine (θ_run Cert.ReferenceIdeal.defs _ _).mono (fun r h c => ?_) (Cert.ReferenceIdeal.Value.run (F := Ideal) m' ρ')
    obtain ⟨g0, g1, g2, g3, g4, g5, g6, g7, g8⟩ := hagree c
    refine ⟨(h c).1.trans ?_, (h c).2.1.trans g1, (h c).2.2.1.trans g3, (h c).2.2.2.1.trans ?_, (h c).2.2.2.2⟩
    · rw [Cert.ReferenceIdeal.Read.val_main_v14_eq, Cert.Joint.Ref.output_eq, g0, g2, g4, g5, g6, g7, g8]
    · rw [Cert.ReferenceIdeal.Read.val_main_v10_eq, Cert.Joint.Ref.hidden_eq, g0, g2, g4, g5, g6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
